-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S256x128 : Shape := ⟨2, ![256, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S500000x128 .f32) (main_arg1 : FVec F S256x128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  main_v8
-- ==== Kernel.lean ====
abbrev S500000x128 : Shape := ⟨2, ![500000, 128]⟩
abbrev S256x128 : Shape := ⟨2, ![256, 128]⟩
abbrev S128x256 : Shape := ⟨2, ![128, 256]⟩
abbrev S_ : Shape := ⟨0, ![]⟩
abbrev S256 : Shape := ⟨1, ![256]⟩
abbrev S1x256 : Shape := ⟨2, ![1, 256]⟩
abbrev S500000x256 : Shape := ⟨2, ![500000, 256]⟩
abbrev S5000x128 : Shape := ⟨2, ![5000, 128]⟩
abbrev S5000x256 : Shape := ⟨2, ![5000, 256]⟩
abbrev S5000 : Shape := ⟨1, ![5000]⟩
abbrev S5000x1 : Shape := ⟨2, ![5000, 1]⟩
abbrev S500000x1x256 : Shape := ⟨3, ![500000, 1, 256]⟩

abbrev nBuf : Space → Nat
  | .hbm => 10
  | .vmem => 6
  | .smem => 0
  | _ => 0

abbrev bufTy : (tb : Table) → Fin (tcTables nBuf tb) → BufTy
  | .hbm, ⟨0, _⟩ => ⟨S500000x128, .f32⟩
  | .hbm, ⟨1, _⟩ => ⟨S256x128, .f32⟩
  | .hbm, ⟨2, _⟩ => ⟨S128x256, .f32⟩
  | .hbm, ⟨3, _⟩ => ⟨S128x256, .bf16⟩
  | .hbm, ⟨4, _⟩ => ⟨S256x128, .f32⟩
  | .hbm, ⟨5, _⟩ => ⟨S_, .f32⟩
  | .hbm, ⟨6, _⟩ => ⟨S256, .f32⟩
  | .hbm, ⟨7, _⟩ => ⟨S1x256, .f32⟩
  | .hbm, ⟨8, _⟩ => ⟨S500000x256, .f32⟩
  | .hbm, ⟨9, _⟩ => ⟨S500000x1x256, .f32⟩
  | .local _ .vmem, ⟨0, _⟩ => ⟨S5000x128, .f32⟩
  | .local _ .vmem, ⟨1, _⟩ => ⟨S5000x128, .f32⟩
  | .local _ .vmem, ⟨2, _⟩ => ⟨S128x256, .bf16⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x128_S128x256_1_0 : S256x128.Transposes [1, 0] S128x256
  bitsLt_bf16_f32 : FTy.bits .bf16 < FTy.bits .f32
  reducesTo_S256x128_S256_d1 : S256x128.ReducesTo [1] S256
  h_S_ : 0 < S_.numel
  bcast_S256_S1x256_1 : S256.BroadcastsInDim S1x256 (![1] : Fin 1 → Fin S1x256.rank)
  inb_S5000x128_S5000x128_0_0 : ∀ a, (![0, 0] : Fin 2 → Nat) a + S5000x128.size a ≤ S5000x128.size a
  h_S5000x128 : 0 < S5000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S5000x128_S5000 : S5000x128.Reduces [1] S5000
  shapeCasts_S5000_S5000x1 : S5000.ShapeCasts S5000x1
  broadcasts_S5000x1_S5000x256 : S5000x1.Broadcasts S5000x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S500000x256_S500000x1x256_0_2 : S500000x256.BroadcastsInDim S500000x1x256 (![0, 2] : Fin 2 → Fin S500000x1x256.rank)
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S500000x256.size a
  hwx0_3 : ∀ i : grid0.Coords, EltTy.bits .f32 = 32 ∨ (Rect.block (s := S500000x256) S5000x256.size (cc0_transform_3 i) (hinb0_3 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x128 : Shape := ⟨2, ![500000, 128]⟩
abbrev S256x128 : Shape := ⟨2, ![256, 128]⟩
abbrev S_ : Shape := ⟨0, ![]⟩
abbrev S500000 : Shape := ⟨1, ![500000]⟩
abbrev S500000x1 : Shape := ⟨2, ![500000, 1]⟩
abbrev S256 : Shape := ⟨1, ![256]⟩
abbrev S1x256 : Shape := ⟨2, ![1, 256]⟩
abbrev S128x256 : Shape := ⟨2, ![128, 256]⟩
abbrev S500000x256 : Shape := ⟨2, ![500000, 256]⟩
abbrev S500000x1x256 : Shape := ⟨3, ![500000, 1, 256]⟩

abbrev nBuf : Space → Nat
  | .hbm => 25
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S256x128, .f32⟩
  | .hbm, ⟨2, _⟩ => ⟨S500000x128, .f32⟩
  | .hbm, ⟨3, _⟩ => ⟨S_, .f32⟩
  | .hbm, ⟨4, _⟩ => ⟨S500000, .f32⟩
  | .hbm, ⟨5, _⟩ => ⟨S500000x1, .f32⟩
  | .hbm, ⟨6, _⟩ => ⟨S256x128, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S128x256, .f32⟩
  | .hbm, ⟨11, _⟩ => ⟨S500000x256, .f32⟩
  | .hbm, ⟨12, _⟩ => ⟨S500000x256, .f32⟩
  | .hbm, ⟨13, _⟩ => ⟨S500000x256, .f32⟩
  | .hbm, ⟨14, _⟩ => ⟨S500000x256, .f32⟩
  | .hbm, ⟨15, _⟩ => ⟨S_, .f32⟩
  | .hbm, ⟨16, _⟩ => ⟨S500000x256, .f32⟩
  | .hbm, ⟨17, _⟩ => ⟨S500000x256, .f32⟩
  | .hbm, ⟨18, _⟩ => ⟨S500000x256, .f32⟩
  | .hbm, ⟨19, _⟩ => ⟨S_, .f32⟩
  | .hbm, ⟨20, _⟩ => ⟨S500000x256, .f32⟩
  | .hbm, ⟨21, _⟩ => ⟨S500000x256, .f32⟩
  | .hbm, ⟨22, _⟩ => ⟨S500000x256, .f32⟩
  | .hbm, ⟨23, _⟩ => ⟨S500000x1x256, .f32⟩
  | .hbm, ⟨24, _⟩ => ⟨S500000x1x256, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  reducesTo_S500000x128_S500000_d1 : S500000x128.ReducesTo [1] S500000
  h_S_ : 0 < S_.numel
  bcast_S500000_S500000x1_0 : S500000.BroadcastsInDim S500000x1 (![0] : Fin 1 → Fin S500000x1.rank)
  reducesTo_S256x128_S256_d1 : S256x128.ReducesTo [1] S256
  bcast_S256_S1x256_1 : S256.BroadcastsInDim S1x256 (![1] : Fin 1 → Fin S1x256.rank)
  transposes_S256x128_S128x256_1_0 : S256x128.Transposes [1, 0] S128x256
  bcast_S500000x1_S500000x256_0_1 : S500000x1.BroadcastsInDim S500000x256 (![0, 1] : Fin 2 → Fin S500000x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S500000x256_S500000x1x256_0_2 : S500000x256.BroadcastsInDim S500000x1x256 (![0, 2] : Fin 2 → Fin S500000x1x256.rank)
  dot_S500000x128_S128x256_S500000x256_1_0_0_1_n_n_wf : DotDims.WF S500000x128 S128x256 S500000x256 [1] [0] [0] [1] [] []

variable [Facts₀]

def dot_S500000x128_S128x256_S500000x256_1_0_0_1_n_n : DotDims S500000x128 S128x256 S500000x256 where
  lhsContracting := [1]
  rhsContracting := [0]
  lhsNonContracting := [0]
  rhsNonContracting := [1]
  lhsBatch := []
  rhsBatch := []
  wf := dot_S500000x128_S128x256_S500000x256_1_0_0_1_n_n_wf

class Facts : Prop extends Facts₀ where

variable [Facts]
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  What the kernel body stores, read at one entry of its 5000 × 256 block.

  From a block `x0` of 5000 points, the whole 128 × 256 array `x1` of transposed centres and the 1 × 256 row `x2` of the
  centres' squared norms, the body stores at `(a, b)`
      0 − sqrt (max (Σ_k x0[a,k]² + x2[0,b] − 2 · Σ_k x0[a,k] · x1[k,b]) ε):
  the lane sum of the squares kept as a column and broadcast over the 256 lanes, the row of squared norms broadcast over
  the 5000 rows, and the matrix product into a zero accumulator, which at the extended reals is the plain sum of
  products (the change of float format on the way into the product is the identity there).
-/
import proofs.«107345_j81449759801816_2_alg».proof.Proof.Gen.KernelIdeal.Skeleton
import proofs.«107345_j81449759801816_2_alg».proof.Proof.LibKeepdims
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.LibKeepdims

/-- The lane sum of a 5000 × 128 block at row `a` is the sum over the 128 lanes of that row. -/
theorem laneSum_apply (y : FVec Ideal S5000x128 .f32) (h : S5000x128.Reduces [1] S5000)
    (hacc : (0x00000000#32 : BitVec 32) = 0x00000000#32) (a : Fin 5000) :
    multiReduction .add [1] S5000 y 0x00000000#32 h (.inl rfl) hacc (ix1 a) = ∑ k : Fin 128, y (ix2 a k) := by
  refine (Ideal.multiReduction_add_single y 0x00000000#32 h (.inl rfl) hacc (ix1 a)).trans ?_
  refine Finset.sum_congr rfl fun k _ => congrArg y ?_
  funext ax
  match ax with
  | ⟨0, _⟩ => rfl
  | ⟨1, _⟩ => rfl

/-- The squared norms of the block's rows, kept as a column and broadcast over the 256 lanes, read at `(a, b)`. -/
theorem rowSq_apply (x0 : FVec Ideal S5000x128 .f32) (h : S5000x128.Reduces [1] S5000)
    (hacc : (0x00000000#32 : BitVec 32) = 0x00000000#32) (hc : S5000.ShapeCasts S5000x1) (hb : S5000x1.Broadcasts S5000x256)
    (a : Fin 5000) (b : Fin 256) :
    broadcastTo S5000x256 (shapeCast S5000x1 (multiReduction .add [1] S5000 (mulf x0 x0) 0x00000000#32 h (.inl rfl) hacc) hc) hb (ix2 a b)
      = ∑ k : Fin 128, x0 (ix2 a k) * x0 (ix2 a k) := by
  rw [broadcastTo_a1_ab_apply, shapeCast_a_a1_apply, laneSum_apply]
  rfl

/-- The row of the centres' squared norms broadcast over the 5000 rows, read at `(a, b)`. -/
theorem ctrRow_apply (x2 : FVec Ideal S1x256 .f32) (hc : S1x256.ShapeCasts S1x256) (hb : S1x256.Broadcasts S5000x256)
    (a : Fin 5000) (b : Fin 256) :
    broadcastTo S5000x256 (shapeCast S1x256 x2 hc) hb (ix2 a b) = x2 (ix2 (0 : Fin 1) b) := by
  rw [broadcastTo_1b_ab_apply, shapeCast_self]

/-! ### The matrix product at an entry -/

/-- The product's left operand index at entry `i` and contraction index `κ` keeps `i`'s row … -/
theorem lhs_row (i : S5000x256.Idx) (κ : dot_S5000x128_S128x256_S5000x256_1_0_0_1_n_n.contr.Idx) :
    (dot_S5000x128_S128x256_S5000x256_1_0_0_1_n_n.lhsIdx i κ 0).val = (i 0).val := by
  unfold DotDims.lhsIdx
  rw [dif_neg (show ¬(0 : Fin S5000x128.rank) ∈ dot_S5000x128_S128x256_S5000x256_1_0_0_1_n_n.lhsBatch by decide),
    dif_pos (show (0 : Fin S5000x128.rank) ∈ dot_S5000x128_S128x256_S5000x256_1_0_0_1_n_n.lhsNonContracting by decide)]
  rfl
/-- … and takes the contraction coordinate as its lane; -/
theorem lhs_lane (i : S5000x256.Idx) (κ : dot_S5000x128_S128x256_S5000x256_1_0_0_1_n_n.contr.Idx) :
    (dot_S5000x128_S128x256_S5000x256_1_0_0_1_n_n.lhsIdx i κ 1).val = (κ ⟨0, by decide⟩).val :=
  dot_S5000x128_S128x256_S5000x256_1_0_0_1_n_n.lhsIdx_val_of_single rfl i κ
/-- the right operand index takes the contraction coordinate as its row … -/
theorem rhs_row (i : S5000x256.Idx) (κ : dot_S5000x128_S128x256_S5000x256_1_0_0_1_n_n.contr.Idx) :
    (dot_S5000x128_S128x256_S5000x256_1_0_0_1_n_n.rhsIdx i κ 0).val = (κ ⟨0, by decide⟩).val :=
  dot_S5000x128_S128x256_S5000x256_1_0_0_1_n_n.rhsIdx_val_of_single rfl i κ
/-- … and keeps `i`'s column. -/
theorem rhs_col (i : S5000x256.Idx) (κ : dot_S5000x128_S128x256_S5000x256_1_0_0_1_n_n.contr.Idx) :
    (dot_S5000x128_S128x256_S5000x256_1_0_0_1_n_n.rhsIdx i κ 1).val = (i 1).val := by
  unfold DotDims.rhsIdx
  rw [dif_neg (show ¬(1 : Fin S128x256.rank) ∈ dot_S5000x128_S128x256_S5000x256_1_0_0_1_n_n.rhsBatch by decide),
    dif_pos (show (1 : Fin S128x256.rank) ∈ dot_S5000x128_S128x256_S5000x256_1_0_0_1_n_n.rhsNonContracting by decide)]
  rfl

/-- The matrix product of the block (its format narrowed, which changes nothing at the extended reals) with the
    transposed centres into the zero accumulator, read at `(a, b)`: the sum over the 128 lanes of the products. -/
theorem cross_apply (x0 : FVec Ideal S5000x128 .f32) (x1 : FVec Ideal S128x256 .bf16) (hlt : FTy.bits .bf16 < FTy.bits .f32)
    (hc : S128x256.ShapeCasts S128x256) (a : Fin 5000) (b : Fin 256) :
    matmul dot_S5000x128_S128x256_S5000x256_1_0_0_1_n_n none (truncf .bf16 x0 hlt) (shapeCast S128x256 x1 hc)
        (constant (F := Ideal) S5000x256 .f32 0x00000000#32) (ix2 a b)
      = ∑ k : Fin 128, x0 (ix2 a k) * x1 (ix2 k b) := by
  rw [shapeCast_self]
  simp only [matmul]
  rw [Ideal.matmul_constant_zero_apply,
    ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 a b)
      ((contrEquiv1 dot_S5000x128_S128x256_S5000x256_1_0_0_1_n_n 128 rfl rfl).symm k) = ix2 a k :=
    funext fun ax => Fin.ext (by
      match ax with
      | ⟨0, _⟩ => exact lhs_row _ _
      | ⟨1, _⟩ => exact (lhs_lane _ _).trans hk)
  have er : dot_S5000x128_S128x256_S5000x256_1_0_0_1_n_n.rhsIdx (ix2 a b)
      ((contrEquiv1 dot_S5000x128_S128x256_S5000x256_1_0_0_1_n_n 128 rfl rfl).symm k) = ix2 k b :=
    funext fun ax => Fin.ext (by
      match ax with
      | ⟨0, _⟩ => exact (rhs_row _ _).trans hk
      | ⟨1, _⟩ => exact rhs_col _ _)
  rw [el, er]
  rfl

/-! ### The stored value at an entry -/

/-- A square root of a vector, read at an index, is the extended reals' square root of the element. -/
theorem sqrt_apply {s : Shape} {φ : FTy} (v : FVec Ideal s φ) (i : s.Idx) : sqrt v i = Ideal.sqrt (v i) := rfl
/-- A scalar constant at the extended reals is the number its word denotes. -/
theorem scalar_ofBits (φ : FTy) (w : BitVec φ.bits) : Scalar.ofBits (F := Ideal) φ w = Ideal.ofBits φ w := rfl

/-- The stored value as one expression of the three loaded blocks: the body's operations in order, its
    intermediate values substituted. -/
theorem pay_eq (x0 : FVec Ideal S5000x128 .f32) (x1 : FVec Ideal S128x256 .bf16) (x2 : FVec Ideal S1x256 .f32) :
    k0_pay1 (F := Ideal) x0 x1 x2
      = subf (broadcast S5000x256 (Scalar.ofBits (F := Ideal) .f32 0x00000000#32))
          (sqrt (maximumf
            (subf
              (addf
                (broadcastTo S5000x256 (shapeCast S5000x1 (multiReduction .add [1] S5000 (mulf x0 x0) 0x00000000#32
                  reduces_S5000x128_S5000 (.inl rfl) rfl) shapeCasts_S5000_S5000x1) broadcasts_S5000x1_S5000x256)
                (broadcastTo S5000x256 (shapeCast S1x256 x2 shapeCasts_S1x256_S1x256) broadcasts_S1x256_S5000x256))
              (mulf (broadcast S5000x256 (Scalar.ofBits (F := Ideal) .f32 0x40000000#32))
                (matmul dot_S5000x128_S128x256_S5000x256_1_0_0_1_n_n none (truncf .bf16 x0 bitsLt_bf16_f32)
                  (shapeCast S128x256 x1 shapeCasts_S128x256_S128x256) (constant (F := Ideal) S5000x256 .f32 0x00000000#32))))
            (broadcast S5000x256 (Scalar.ofBits (F := Ideal) .f32 0x2B8CBCCC#32)))) := rfl

/-- THE PAYLOAD AT `(a, b)`: zero minus the square root is the negation. -/
theorem pay_apply (x0 : FVec Ideal S5000x128 .f32) (x1 : FVec Ideal S128x256 .bf16) (x2 : FVec Ideal S1x256 .f32)
    (a : Fin 5000) (b : Fin 256) :
    k0_pay1 (F := Ideal) x0 x1 x2 (ix2 a b)
      = -Ideal.sqrt (max ((∑ k : Fin 128, x0 (ix2 a k) * x0 (ix2 a k)) + x2 (ix2 (0 : Fin 1) b)
          - Ideal.ofBits .f32 0x40000000#32 * ∑ k : Fin 128, x0 (ix2 a k) * x1 (ix2 k b)) (Ideal.ofBits .f32 0x2B8CBCCC#32)) := by
  rw [pay_eq]
  simp only [subf_apply, sqrt_apply, maximumf_apply, addf_apply, mulf_apply, broadcast_apply, scalar_ofBits]
  rw [rowSq_apply, ctrRow_apply, cross_apply, Ideal.ofBits_zero_f32, zero_sub]

end Cert.KernelIdeal.Body

end
-- ==== Proof.Entry.lean ====
/-
  The two arrays the host computes from the centres before the region, as the region finds them, read at an entry:
  the transposed centres (their format narrowed, the identity at the extended reals) at `(k, q)` hold the centres at
  `(q, k)`; the row of squared norms at `(0, q)` holds the zero word plus the sum over the 128 lanes of the squares of
  the centres' row `q`.
-/
import proofs.«107345_j81449759801816_2_alg».proof.Proof.Gen.KernelIdeal.Frame
import Idealize.ShloMosaic.Lib.ValueIdx
import Idealize.ShloMosaic.Lib.ValueLayout
import Idealize.ShloMosaic.Lib.StableHlo.Run
import Idealize.ShloMosaic.PureOps.Ideal.Laws

noncomputable section

open scoped BigOperators

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- The points as launched on core `c`, as an array of extended reals. -/
abbrev pts (c : Dev nD) : FVec Ideal S500000x128 .f32 := m ((c : Thread nD τ).loc main_arg0)
/-- The centres as launched on core `c`, as an array of extended reals. -/
abbrev ctrs (c : Dev nD) : FVec Ideal S256x128 .f32 := m ((c : Thread nD τ).loc main_arg1)

/-- The transposed centres as the region finds them: the host's transpose, then its change of format. -/
theorem V_v1 (c : Dev nD) :
    (V m c main_v1 : S128x256.Idx → EReal)
      = truncf (F := Ideal) .bf16 (transpose S128x256 [1, 0] (ctrs m c) transposes_S256x128_S128x256_1_0) bitsLt_bf16_f32 := by
  show StableHlo.after hostOps0 (fun b => m (c, b)) (Proc.devRef .tc main_v1) = _
  after_results

/-- The row of squared norms as the region finds it: the host's product, its sum from the zero word along the lanes,
    and the unit axis put in front. -/
theorem V_v4 (c : Dev nD) :
    (V m c main_v4 : S1x256.Idx → EReal)
      = broadcastInDim S1x256 ![1] bcast_S256_S1x256_1
          (Host.reduceAdd (F := Ideal) (mulf (ctrs m c) (ctrs m c))
            (constant (F := Ideal) S_ .f32 0x00000000#32) reducesTo_S256x128_S256_d1 h_S_) := by
  show StableHlo.after hostOps0 (fun b => m (c, b)) (Proc.devRef .tc main_v4) = _
  after_results

/-- The transposed centres at `(k, q)` are the centres at `(q, k)`. -/
theorem V_v1_apply (c : Dev nD) (k : Fin 128) (q : Fin 256) :
    (V m c main_v1 : S128x256.Idx → EReal) (ix2 k q) = ctrs m c (ix2 q k) := by
  rw [V_v1]
  exact transpose_ix2_apply _ _ k q

/-- The host's sum along the lanes of a 256 × 128 array, from the value `z` of the scalar it starts from, read at row `q`. -/
theorem hostLaneSum_apply (y : FVec Ideal S256x128 .f32) (z : FVec Ideal S_ .f32) (q : Fin 256) :
    Host.reduceAdd (F := Ideal) y z reducesTo_S256x128_S256_d1 h_S_ (ix1 q) = z (Shape.Idx.first h_S_) + ∑ k : Fin 128, y (ix2 q k) := by
  simp only [Host.reduceAdd, Ideal.hostReduceAdd_def]
  rw [Ideal.hostReduceAdd_single reducesTo_S256x128_S256_d1 (by decide)]
  refine congrArg (_ + ·) (Finset.sum_congr rfl fun k _ => ?_)
  exact congrArg y (funext fun a => by match a with | ⟨0, _⟩ => rfl | ⟨1, _⟩ => rfl)

/-- The row of squared norms at `(0, q)`: the zero word plus the sum of the squares of the centres' row `q`. -/
theorem V_v4_apply (c : Dev nD) (q : Fin 256) :
    (V m c main_v4 : S1x256.Idx → EReal) (ix2 (0 : Fin 1) q)
      = Ideal.ofBits .f32 0x00000000#32
        + ∑ k : Fin 128, ctrs m c (ix2 q k) * ctrs m c (ix2 q k) := by
  rw [V_v4]
  refine (broadcastInDim_apply _ bcast_S256_S1x256_1 _ (ix2 (0 : Fin 1) q) (ix1 q) (fun a => match a with
    | ⟨0, _⟩ => by show q.val = if (256 : Nat) = 1 then 0 else q.val; rw [if_neg (by decide)])).trans ?_
  rw [hostLaneSum_apply]
  rfl

end Cert.KernelIdeal.Entry

end
-- ==== Proof.Spec.lean ====
/-
  The function both programs compute, stated once over the extended reals.

  For an array `e` of 500000 rows and an array `p` of 256 rows, each row a vector of 128 extended reals, the
  entry at row `r` and column `q` is minus the square root of
      max (‖e_r‖² + ‖p_q‖² − 2 · ⟨e_r, p_q⟩) ε,
  where ‖·‖² is the sum of the 128 squares of a row, ⟨·,·⟩ the sum of the 128 products of two rows, `2` the number
  the word 0x40000000 denotes and ε the number the word 0x2B8CBCCC denotes. Nothing here depends on what those two
  words denote: both programs carry the same words, so they are never evaluated. The sums are sums in the additive
  commutative monoid of the extended reals, so neither their order nor their grouping matters.
-/
import Idealize.ShloMosaic.Lib.ValueIdx
import Idealize.ShloMosaic.PureOps.Ideal.Laws

noncomputable section

open scoped BigOperators

namespace Cert.NegDist

open Idealize.ShloMosaic Idealize.ShloMosaic.ValueIdx

/-- The 500000 × 128 array of points. -/
abbrev Pts : Type := FVec Ideal (⟨2, ![500000, 128]⟩ : Shape) .f32
/-- The 256 × 128 array of centres. -/
abbrev Ctrs : Type := FVec Ideal (⟨2, ![256, 128]⟩ : Shape) .f32

/-- ‖e_r‖²: the sum of the squares of row `r` of the points. -/
def ptSq (e : Pts) (r : Fin 500000) : EReal := ∑ k : Fin 128, e (ix2 r k) * e (ix2 r k)

/-- ‖p_q‖²: the sum of the squares of row `q` of the centres. -/
def ctrSq (p : Ctrs) (q : Fin 256) : EReal := ∑ k : Fin 128, p (ix2 q k) * p (ix2 q k)

/-- ⟨e_r, p_q⟩: the sum of the products of row `r` of the points with row `q` of the centres. -/
def rowDot (e : Pts) (p : Ctrs) (r : Fin 500000) (q : Fin 256) : EReal := ∑ k : Fin 128, e (ix2 r k) * p (ix2 q k)

/-- Minus the clamped distance between point `r` and centre `q`. -/
def negDist (e : Pts) (p : Ctrs) (r : Fin 500000) (q : Fin 256) : EReal :=
  -Ideal.sqrt (max (ptSq e r + ctrSq p q - Ideal.ofBits .f32 0x40000000#32 * rowDot e p r q) (Ideal.ofBits .f32 0x2B8CBCCC#32))

/-- The same as a 500000 × 256 array … -/
def negDist2 (e : Pts) (p : Ctrs) : FVec Ideal (⟨2, ![500000, 256]⟩ : Shape) .f32 := fun i => negDist e p (i 0) (i 1)

/-- … and with a unit axis in the middle, the shape both programs return. -/
def negDist3 (e : Pts) (p : Ctrs) : FVec Ideal (⟨3, ![500000, 1, 256]⟩ : Shape) .f32 := fun i => negDist e p (i 0) (i 2)

end Cert.NegDist

end
-- ==== Proof.Blocks.lean ====
/-
  From the blocks to the array. Grid point `t` works on rows `5000·t … 5000·t + 4999`: its block of the points is those
  rows, the transposed centres and the row of squared norms are whole and the same at every point, and what it writes
  back is those rows of the result. Entry `(a, b)` of what point `t` writes back is therefore the specification's
  entry at row `5000·t + a` and column `b`; every row lies in the block of point `row / 5000`; so after the last
  write-back the result array is the specification's 500000 × 256 array.
-/
import proofs.«107345_j81449759801816_2_alg».proof.Proof.Gen.KernelIdeal.Frame
import proofs.«107345_j81449759801816_2_alg».proof.Proof.Payload
import proofs.«107345_j81449759801816_2_alg».proof.Proof.Entry
import proofs.«107345_j81449759801816_2_alg».proof.Proof.Spec
import Idealize.ShloMosaic.Lib.Pipeline.Value

set_option maxRecDepth 16384

noncomputable section

open scoped BigOperators

namespace Cert.KernelIdeal.Blocks

open Cert.KernelIdeal Cert.KernelIdeal.Gen Cert.KernelIdeal.Body Cert.KernelIdeal.Entry Cert.NegDist
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The printed index maps, decided over the 100 grid points: the points' block and the result's block are at block row
    `t`, block column 0; the two arrays made from the centres are always at block (0, 0). -/
theorem index_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 99 :=
  (by decide +kernel : ∀ t : Fin grid0.N, _)

/-- Every block row of the result is some point's. -/
theorem index_onto : ∀ q0 : Fin 100, ∃ t : Fin cfg0.N, win0_3.index t = ![q0.val, 0] :=
  (by decide +kernel : ∀ q0 : Fin 100, ∃ t : Fin grid0.N, win0_3.index t = ![q0.val, 0])

/-- One entry of what a point stores, from what its three blocks hold: if row `a` of the block of points is row `r` of
    the points, column `b` of the transposed centres is row `b` of the centres, and entry `b` of the row of squared
    norms is the zero word plus the squared norm of that row, then the stored entry is the specification's at `(r, b)`. -/
theorem stored_entry (e : Pts) (p : Ctrs) (x0 : FVec Ideal S5000x128 .f32) (x1 : FVec Ideal S128x256 .bf16)
    (x2 : FVec Ideal S1x256 .f32) (r : Fin 500000) (a : Fin 5000) (b : Fin 256)
    (h0 : ∀ k : Fin 128, x0 (ix2 a k) = e (ix2 r k))
    (h1 : ∀ k : Fin 128, x1 (ix2 k b) = p (ix2 b k))
    (h2 : x2 (ix2 (0 : Fin 1) b) = Ideal.ofBits .f32 0x00000000#32 + ∑ k : Fin 128, p (ix2 b k) * p (ix2 b k)) :
    k0_pay1 (F := Ideal) x0 x1 x2 (ix2 a b) = negDist e p r b := by
  rw [pay_apply]
  unfold negDist ptSq ctrSq rowDot
  simp only [h0, h1, h2, Ideal.ofBits_zero_f32, zero_add]

/-- Row `a`, lane `k` of point `t`'s block of the points is row `r = 5000·t + a` of the points as the region finds them. -/
theorem pts_block (c : Dev nD) (t : Fin cfg0.N) (a : Fin 5000) (k : Fin 128) (r : Fin 500000)
    (hr : r.val = win0_3.index t (0 : Fin 2) * 5000 + a.val) :
    iblk m c 0 t (ix2 a k) = (V m c main_arg0 : S500000x128.Idx → EReal) (ix2 r k) := by
  obtain ⟨e0, e1, -, -, -, -, -, -⟩ := index_facts t
  show (V m c main_arg0 : S500000x128.Idx → EReal) (((cfg0.win 0).blk t).view.emb (ix2 a k)) = _
  refine congrArg (V m c main_arg0 : S500000x128.Idx → EReal) ?_
  funext ax; apply Fin.ext
  match ax with
  | ⟨0, _⟩ => show win0_0.index t (0 : Fin 2) * 5000 + 1 * a.val = r.val; omega
  | ⟨1, _⟩ => show win0_0.index t (1 : Fin 2) * 128 + 1 * k.val = k.val; omega

/-- The block of the transposed centres is the whole array. -/
theorem ctrsT_block (c : Dev nD) (t : Fin cfg0.N) (k : Fin 128) (b : Fin 256) :
    iblk m c 1 t (ix2 k b) = (V m c main_v1 : S128x256.Idx → EReal) (ix2 k b) := by
  obtain ⟨-, -, e2, e3, -, -, -, -⟩ := index_facts t
  show (V m c main_v1 : S128x256.Idx → EReal) (((cfg0.win 1).blk t).view.emb (ix2 k b)) = _
  refine congrArg (V m c main_v1 : S128x256.Idx → EReal) ?_
  funext ax; apply Fin.ext
  match ax with
  | ⟨0, _⟩ => show win0_1.index t (0 : Fin 2) * 128 + 1 * k.val = k.val; omega
  | ⟨1, _⟩ => show win0_1.index t (1 : Fin 2) * 256 + 1 * b.val = b.val; omega

/-- The block of the row of squared norms is the whole row. -/
theorem ctrSq_block (c : Dev nD) (t : Fin cfg0.N) (u : Fin 1) (b : Fin 256) :
    iblk m c 2 t (ix2 u b) = (V m c main_v4 : S1x256.Idx → EReal) (ix2 u b) := by
  obtain ⟨-, -, -, -, e4, e5, -, -⟩ := index_facts t
  show (V m c main_v4 : S1x256.Idx → EReal) (((cfg0.win 2).blk t).view.emb (ix2 u b)) = _
  refine congrArg (V m c main_v4 : S1x256.Idx → EReal) ?_
  funext ax; apply Fin.ext
  match ax with
  | ⟨0, _⟩ => show win0_2.index t (0 : Fin 2) * 1 + 1 * u.val = u.val; omega
  | ⟨1, _⟩ => show win0_2.index t (1 : Fin 2) * 256 + 1 * b.val = b.val; omega

/-- WHAT POINT `t` WRITES BACK is block `t` of the specification's array of the points and the centres as launched. -/
theorem flushed_eq (c : Dev nD) (t : Fin cfg0.N) :
    (dats m 0 c).flushed 3 t = ((cfg0.win 3).blk t).view.read (Elt Ideal) (negDist2 (pts m c) (ctrs m c)) := by
  show (cfg0.win 3).cut (grid0.coords t) ((dats m 0 c).after 3 t) = _
  rw [after0_3]
  unfold out0_3
  rw [View.canon_unit_zero zero_offsets]
  simp only [View.ld_unit_zero (S := S5000x128) zero_offsets, View.ld_unit_zero (S := S128x256) zero_offsets,
    View.ld_unit_zero (S := S1x256) zero_offsets]
  obtain ⟨-, -, -, -, -, -, e6, e7⟩ := index_facts t
  funext j
  obtain ⟨a, b, rfl⟩ : ∃ (a : Fin 5000) (b : Fin 256), j = ix2 a b := ⟨j 0, j 1, eq_ix2 j⟩
  have ha : a.val < 5000 := a.isLt
  let r : Fin 500000 := ⟨win0_3.index t (0 : Fin 2) * 5000 + a.val, by omega⟩
  have hout : ((cfg0.win 3).blk t).view.emb (ix2 a b) = ix2 r b := by
    funext ax; apply Fin.ext
    match ax with
    | ⟨0, _⟩ => show win0_3.index t (0 : Fin 2) * 5000 + 1 * a.val = win0_3.index t (0 : Fin 2) * 5000 + a.val; omega
    | ⟨1, _⟩ => show win0_3.index t (1 : Fin 2) * 256 + 1 * b.val = b.val; omega
  show k0_pay1 (F := Ideal) (iblk m c 0 t) (iblk m c 1 t) (iblk m c 2 t) (ix2 a b)
    = negDist2 (pts m c) (ctrs m c) (((cfg0.win 3).blk t).view.emb (ix2 a b))
  rw [hout]
  show _ = negDist (pts m c) (ctrs m c) r b
  exact stored_entry (pts m c) (ctrs m c) (iblk m c 0 t) (iblk m c 1 t) (iblk m c 2 t) r a b
    (fun k => (pts_block m c t a k r rfl).trans (congrFun (V_main_arg0 m c) (ix2 r k)))
    (fun k => (ctrsT_block m c t k b).trans (V_v1_apply m c k b))
    ((ctrSq_block m c t 0 b).trans (V_v4_apply m c b))

/-- An index of the result array is in point `t`'s block iff each coordinate is in the block's range on its axis. -/
theorem mem_blk (t : Fin cfg0.N) (i : S500000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v5).slice (win0_3.rect t)).set ↔ _
  rw [View.set_slice_whole, Rect.mem_set_unit]
  exact Iff.rfl

/-- Every index of the result array is in the block of the point its row divided by 5000 names. -/
theorem covered (i : S500000x256.Idx) :
    ∃ t : Fin cfg0.N, (cfg0.win 3).flush t = true ∧ i ∈ ((cfg0.win 3).blk t).view.set := by
  have hi0 : (i 0).val < 500000 := (i 0).isLt
  have hi1 : (i 1).val < 256 := (i 1).isLt
  obtain ⟨t, ht⟩ := index_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 256 ≤ (i 1).val ∧ (i 1).val < win0_3.index t (1 : Fin 2) * 256 + 256
    omega

/-- THE RESULT ARRAY after the last write-back is the specification's array of the points and the centres as launched. -/
theorem result_array (c : Dev nD) : (dats m 0 c).arrAt 3 cfg0.N = negDist2 (pts m c) (ctrs m c) :=
  (dats m 0 c).arrAt_eq_of_cover 3 (negDist2 (pts m c) (ctrs m c)) (fun t _ => flushed_eq m c t) covered

end Cert.KernelIdeal.Blocks

end
-- ==== Proof.KernelRun.lean ====
/-
  The kernel program's run, with its result named: after the region the host puts a unit axis in the middle of the
  500000 × 256 result array, so the program's result at `(r, 0, q)` is the array's entry `(r, q)`, the
  specification's entry for point `r` and centre `q`.
-/
import proofs.«107345_j81449759801816_2_alg».proof.Proof.Blocks
import Idealize.ShloMosaic.Lib.StableHlo.Run

noncomputable section

namespace Cert.KernelIdeal.KRun

open Cert.KernelIdeal Cert.KernelIdeal.Gen Cert.KernelIdeal.Entry Cert.KernelIdeal.Blocks Cert.NegDist
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The program's result buffer after the host's last operation: the region's result array with a unit axis put in. -/
theorem tail_eq (c : Dev nD) :
    (Pipeline.afterTail₀ cfgs (dats m) 0 (V0 m) [hostOps1] c main_v6 : S500000x1x256.Idx → EReal)
      = broadcastInDim S500000x1x256 ![0, 2] bcast_S500000x256_S500000x1x256_0_2 (negDist2 (pts m c) (ctrs m c)) := by
  unfold Pipeline.afterTail₀
  show StableHlo.after hostOps1 _ (Proc.devRef .tc main_v6) = _
  after_results
  exact congrArg (broadcastInDim S500000x1x256 ![0, 2] bcast_S500000x256_S500000x1x256_0_2)
    ((Pipeline.withArrays_arr spec0 launch0.win.arr_inj c (V0 m c) (fun w => (dats m 0 c).arrAt w cfg0.N) 3).trans
      (result_array m c))

/-- The program's result buffer is the specification's array with the unit axis in the middle. -/
theorem result_eq (c : Dev nD) :
    (Pipeline.afterTail₀ cfgs (dats m) 0 (V0 m) [hostOps1] c main_v6 : S500000x1x256.Idx → EReal)
      = negDist3 (pts m c) (ctrs m c) := by
  rw [tail_eq]
  funext i
  obtain ⟨r, u, q, rfl⟩ : ∃ (r : Fin 500000) (u : Fin 1) (q : Fin 256), i = ix3 r u q := ⟨i 0, i 1, i 2, eq_ix3 i⟩
  refine (broadcastInDim_apply _ bcast_S500000x256_S500000x1x256_0_2 (negDist2 (pts m c) (ctrs m c)) (ix3 r u q) (ix2 r q)
    (fun a => match a with
      | ⟨0, _⟩ => by show r.val = if (500000 : Nat) = 1 then 0 else r.val; rw [if_neg (by decide)]
      | ⟨1, _⟩ => by show q.val = if (256 : Nat) = 1 then 0 else q.val; rw [if_neg (by decide)])).trans ?_
  rfl

/-- THE RUN: every weakly fair execution of the kernel program terminates without a fault, its result buffer holding
    the specification's array of the points and the centres as launched, and those two unchanged. -/
theorem run : θ_run defs (onTc (τ := τ) (main (F := Ideal))) ⟨m, fun _ => 0, ρ⟩ fun r => ∀ c : Dev nD,
      r.2.mem ((c : Thread nD τ).loc main_v6) = negDist3 (pts m c) (ctrs m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v6 (Pipeline.mem_restRefs_of main_v6 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.KRun

end
-- ==== Proof.RefIsSpec.lean ====
/-
  The reference's result, read one operation at a time, is the specification's array: at `(r, 0, q)` it negates the
  square root of the clamped `‖e_r‖² + ‖p_q‖² − 2 · ⟨e_r, p_q⟩`, each squared norm a host sum from the zero word over the
  128 lanes of a row, the inner product the host's contraction of row `r` of the points with column `q` of the
  transposed centres, which is row `q` of the centres.
-/
import proofs.«107345_j81449759801816_2_alg».proof.Proof.Gen.ReferenceIdeal.Read
import proofs.«107345_j81449759801816_2_alg».proof.Proof.Spec

noncomputable section

open scoped BigOperators

namespace Cert.ReferenceIdeal.RefValue

open Cert.ReferenceIdeal Cert.ReferenceIdeal.Read Idealize.ShloMosaic Idealize.ShloMosaic.ValueIdx Cert.NegDist

/-- The reference's last stage is `negDist3` of its two arguments, entry by entry. -/
theorem ref_eq_negDist3 (x0 : Pts) (x1 : Ctrs) : val_main_v18 (F := Ideal) x0 x1 = negDist3 x0 x1 := by
  funext i
  obtain ⟨r, u, q, rfl⟩ : ∃ (r : Fin 500000) (u : Fin 1) (q : Fin 256), i = ix3 r u q := ⟨i 0, i 1, i 2, eq_ix3 i⟩
  -- the operations, outermost first, each read at an index
  simp only [val_main_v18_apply, val_main_v17_apply, val_main_v16_apply, val_main_v15_apply, val_main_v14_apply,
    val_main_cst_2_apply, val_main_v13_apply, val_main_v12_apply, val_main_v11_apply, val_main_cst_1_apply,
    val_main_v10_apply, val_main_v9_apply, val_main_v8_apply, val_main_v7_apply, val_main_v6_apply, val_main_v5_apply,
    val_main_v4_apply, val_main_cst_0_apply, val_main_v3_apply, val_main_v2_apply, val_main_v1_apply, val_main_cst_apply,
    val_main_v0_apply]
  -- the composed index maps: row `r` of the points, row `q` of the centres, lane `k`
  have h1 : ∀ k : Fin 128, idx_main_v1 (idx_main_v2 (idx_main_v8 (idx_main_v17 (ix3 r u q)))) k = ix2 r k := fun k =>
    funext fun a => Fin.ext (by match a with | ⟨0, _⟩ => rfl | ⟨1, _⟩ => rfl)
  have h2 : ∀ k : Fin 128, idx_main_v4 (idx_main_v5 (idx_main_v9 (idx_main_v17 (ix3 r u q)))) k = ix2 q k := fun k =>
    funext fun a => Fin.ext (by match a with | ⟨0, _⟩ => rfl | ⟨1, _⟩ => rfl)
  have h3 : ∀ k : Fin 128, lidx_main_v7 (idx_main_v17 (ix3 r u q)) k = ix2 r k := fun k =>
    funext fun a => Fin.ext (by match a with | ⟨0, _⟩ => rfl | ⟨1, _⟩ => rfl)
  have h4 : ∀ k : Fin 128, idx_main_v6 (ridx_main_v7 (idx_main_v17 (ix3 r u q)) k) = ix2 q k := fun k =>
    funext fun a => Fin.ext (by match a with | ⟨0, _⟩ => rfl | ⟨1, _⟩ => rfl)
  simp only [h1, h2, h3, h4]
  unfold negDist3 negDist ptSq ctrSq rowDot
  simp only [Ideal.hostNegf_def, Ideal.negf_def, Ideal.hostUnary_sqrt_def, Ideal.maximumf_def, Ideal.subf_def,
    Ideal.addf_def, Ideal.mulf_def, Ideal.ofBits_def, Ideal.ofBits_zero_f32, zero_add]

end Cert.ReferenceIdeal.RefValue

end
-- ==== Proof.lean ====
/- The proof of `Cert.Claim`: a kernel that, for 500000 points and 256 centres in 128 dimensions, returns minus the
   clamped Euclidean distance of every point to every centre, against the same function written with array operations.

   Both programs compute, for point `e_r` and centre `p_q`,
       −sqrt (max (‖e_r‖² + ‖p_q‖² − 2 · ⟨e_r, p_q⟩) ε)
   with the same words for `2` and `ε` (Proof/Spec.lean states this function once). The kernel takes the points 5000
   rows at a time: a lane sum for ‖e_r‖², the centres' squared norms and their transpose computed once on the host,
   a matrix product into a zero accumulator for the inner products, and `0 − sqrt(·)` for the sign; the reference sums,
   contracts and negates whole arrays. At the extended reals a change of float format is the identity, a lane sum, a
   host sum from the zero word and a matrix product into zero are plain finite sums over the same 128 lanes, and
   `0 − x = −x`; no law that needs finiteness is used, so the precondition is never opened.

   Proof/Payload.lean reads what the body stores at one entry of a block; Proof/Entry.lean the two arrays the host
   makes from the centres before the region; Proof/Blocks.lean joins the 100 blocks into the result array;
   Proof/KernelRun.lean reads the host's last operation and names the kernel program's result; Proof/RefIsSpec.lean
   reads the reference's result, one operation at a time, as the same function. The three frames are the programs' runs
   with the results dropped; nothing of the kernel was rewritten on the way to the extended reals, so `preserves` is
   trivially true. -/
import proofs.«107345_j81449759801816_2_alg».proof.Defs
import proofs.«107345_j81449759801816_2_alg».proof.Proof.Gen.Kernel
import proofs.«107345_j81449759801816_2_alg».proof.Proof.Gen.Kernel.Skeleton
import proofs.«107345_j81449759801816_2_alg».proof.Proof.Gen.Kernel.Launch
import proofs.«107345_j81449759801816_2_alg».proof.Proof.Gen.Kernel.Points
import proofs.«107345_j81449759801816_2_alg».proof.Proof.Gen.Kernel.Frame
import proofs.«107345_j81449759801816_2_alg».proof.Proof.Gen.KernelIdeal
import proofs.«107345_j81449759801816_2_alg».proof.Proof.Gen.KernelIdeal.Skeleton
import proofs.«107345_j81449759801816_2_alg».proof.Proof.Gen.KernelIdeal.Launch
import proofs.«107345_j81449759801816_2_alg».proof.Proof.Gen.KernelIdeal.Points
import proofs.«107345_j81449759801816_2_alg».proof.Proof.Gen.KernelIdeal.Frame
import proofs.«107345_j81449759801816_2_alg».proof.Proof.Gen.ReferenceIdeal
import proofs.«107345_j81449759801816_2_alg».proof.Proof.Gen.Pre_finite_inputs
import proofs.«107345_j81449759801816_2_alg».proof.Proof.Gen.ReferenceIdeal.Run
import proofs.«107345_j81449759801816_2_alg».proof.Proof.Gen.ReferenceIdeal.Read
import proofs.«107345_j81449759801816_2_alg».proof.Proof.KernelRun
import proofs.«107345_j81449759801816_2_alg».proof.Proof.RefIsSpec
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel as printed and the kernel at the extended reals. -/
theorem preserves : Cert.preserves_Kernel_KernelIdeal := trivial

/-- From memories that agree on the points and the centres both programs end with the specification's array of them:
    the kernel program by its run, the reference by its run read one operation at a time. -/
theorem algebraic : Cert.algebraic_KernelIdeal_ReferenceIdeal := by
  intro m ρ m' ρ' _ hagree
  refine ⟨fun c => Cert.NegDist.negDist3 (Cert.KernelIdeal.Entry.pts m c) (Cert.KernelIdeal.Entry.ctrs m c),
    Cert.KernelIdeal.KRun.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefValue.ref_eq_negDist3,
    (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
